-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x128 : Shape := ⟨3, ![512, 256, 128]⟩
abbrev S512x256x256 : Shape := ⟨3, ![512, 256, 256]⟩
abbrev S128x1 : Shape := ⟨2, ![128, 1]⟩
abbrev S_ : Shape := ⟨0, ![]⟩

class Facts : Prop where
  bcast_S_S512x256x128 : S_.BroadcastsInDim S512x256x128 (![] : Fin 0 → Fin S512x256x128.rank)
  reducesTo_S512x256x128_S_d0_1_2 : S512x256x128.ReducesTo [0, 1, 2] S_
  h_S_ : 0 < S_.numel
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg5 : FVec F S128x1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  main_v23

def fn {F : FTy → Type} [FloatOps F] (main_arg0 : FVec F S512x256x128 .f32) (main_arg1 : IVec S512x256x256 32) (main_arg2 : FVec F S128x1 .f32) (main_arg3 : FVec F S128x1 .f32) (main_arg4 : FVec F S128x1 .f32) (main_arg5 : FVec F S128x1 .f32) : IVec S_ 1 :=
  let main_v0 : FVec F S512x256x128 .f32 := Host.absf main_arg0
  let main_cst : FVec F S_ .f32 := constant S_ .f32 0x7F800000#32
  let main_v1 : FVec F S512x256x128 .f32 := broadcastInDim S512x256x128 ![] bcast_S_S512x256x128 main_cst
  let main_v2 : IVec S512x256x128 1 := cmpf .olt main_v0 main_v1
  let main_c : IVec S_ 1 := constantI S_ 1 1#1
  let main_v3 : IVec S_ 1 := (fun x v => Host.reduce IntOp.andi x v reducesTo_S512x256x128_S_d0_1_2 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S512x256x128 : Shape := ⟨3, ![512, 256, 128]⟩
abbrev S512x256x256 : Shape := ⟨3, ![512, 256, 256]⟩
abbrev S128x1 : Shape := ⟨2, ![128, 1]⟩
abbrev S128 : Shape := ⟨1, ![128]⟩
abbrev S1x128 : Shape := ⟨2, ![1, 128]⟩
abbrev S8x256x128 : Shape := ⟨3, ![8, 256, 128]⟩
abbrev S8x256x256 : Shape := ⟨3, ![8, 256, 256]⟩
abbrev S1x1x128 : Shape := ⟨3, ![1, 1, 128]⟩
abbrev S8x256 : Shape := ⟨2, ![8, 256]⟩
abbrev S8x256x1 : Shape := ⟨3, ![8, 256, 1]⟩

abbrev nBuf : Space → Nat
  | .hbm => 15
  | .vmem => 10
  | .smem => 0
  | _ => 0

abbrev bufTy : (tb : Table) → Fin (tcTables nBuf tb) → BufTy
  | .hbm, ⟨0, _⟩ => ⟨S512x256x128, .f32⟩
  | .hbm, ⟨1, _⟩ => ⟨S512x256x256, .i32⟩
  | .hbm, ⟨2, _⟩ => ⟨S128x1, .f32⟩
  | .hbm, ⟨3, _⟩ => ⟨S128x1, .f32⟩
  | .hbm, ⟨4, _⟩ => ⟨S128x1, .f32⟩
  | .hbm, ⟨5, _⟩ => ⟨S128x1, .f32⟩
  | .hbm, ⟨6, _⟩ => ⟨S128, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S512x256x128, .f32⟩
  | .local _ .vmem, ⟨0, _⟩ => ⟨S8x256x128, .f32⟩
  | .local _ .vmem, ⟨1, _⟩ => ⟨S8x256x128, .f32⟩
  | .local _ .vmem, ⟨2, _⟩ => ⟨S8x256x256, .i32⟩
  | .local _ .vmem, ⟨3, _⟩ => ⟨S8x256x256, .i32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S8x256x128, .f32⟩
  | .local _ .vmem, ⟨9, _⟩ => ⟨S8x256x128, .f32⟩
  | _, _ => ⟨S512x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128x1_S128 : S128x1.ShapeCasts S128
  shapeCasts_S128_S1x128 : S128.ShapeCasts S1x128
  inb_S8x256x128_S8x256x128_0_0_0 : ∀ a, (![0, 0, 0] : Fin 3 → Nat) a + S8x256x128.size a ≤ S8x256x128.size a
  h_S8x256x128 : 0 < S8x256x128.numel
  bitsLt_bf16_f32 : FTy.bits .bf16 < FTy.bits .f32
  inb_S8x256x256_S8x256x256_0_0_0 : ∀ a, (![0, 0, 0] : Fin 3 → Nat) a + S8x256x256.size a ≤ S8x256x256.size a
  h_S8x256x256 : 0 < S8x256x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S8x256x128 : S1x1x128.Broadcasts S8x256x128
  reduces_S8x256x256_S8x256 : S8x256x256.Reduces [2] S8x256
  shapeCasts_S8x256_S8x256x1 : S8x256.ShapeCasts S8x256x1
  broadcasts_S8x256x1_S8x256x256 : S8x256x1.Broadcasts S8x256x256
  dot_S8x256x128_S8x256x128_S8x256x256_2_2_1_1_0_0_wf : DotDims.WF S8x256x128 S8x256x128 S8x256x256 [2] [2] [1] [1] [0] [0]
  dot_S8x256x256_S8x256x128_S8x256x128_2_1_1_2_0_0_wf : DotDims.WF S8x256x256 S8x256x128 S8x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x128.size a ≤ S512x256x128.size a
  hwx0_0 : ∀ i : grid0.Coords, EltTy.bits .f32 = 32 ∨ (Rect.block (s := S512x256x128) S8x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S512x256x256.size a
  hwx0_1 : ∀ i : grid0.Coords, EltTy.bits .i32 = 32 ∨ (Rect.block (s := S512x256x256) S8x256x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256x128.size a ≤ S512x256x128.size a
  hwx0_6 : ∀ i : grid0.Coords, EltTy.bits .f32 = 32 ∨ (Rect.block (s := S512x256x128) S8x256x128.size (cc0_transform_6 i) (hinb0_6 i)).WholeWords (EltTy.packing .f32)

variable [Facts₀]

def dot_S8x256x128_S8x256x128_S8x256x256_2_2_1_1_0_0 : DotDims S8x256x128 S8x256x128 S8x256x256 where
  lhsContracting := [2]
  rhsContracting := [2]
  lhsNonContracting := [1]
  rhsNonContracting := [1]
  lhsBatch := [0]
  rhsBatch := [0]
  wf := dot_S8x256x128_S8x256x128_S8x256x256_2_2_1_1_0_0_wf
def dot_S8x256x256_S8x256x128_S8x256x128_2_1_1_2_0_0 : DotDims S8x256x256 S8x256x128 S8x256x128 where
  lhsContracting := [2]
  rhsContracting := [1]
  lhsNonContracting := [1]
  rhsNonContracting := [2]
  lhsBatch := [0]
  rhsBatch := [0]
  wf := dot_S8x256x256_S8x256x128_S8x256x128_2_1_1_2_0_0_wf

abbrev win0_0 : Pipeline.Window sig grid0 :=
  Pipeline.Window.ofSpec (Memref.whole main_arg0) S8x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8x256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x256x128 : Shape := ⟨3, ![512, 256, 128]⟩
abbrev S512x256x256 : Shape := ⟨3, ![512, 256, 256]⟩
abbrev S128x1 : Shape := ⟨2, ![128, 1]⟩
abbrev S128 : Shape := ⟨1, ![128]⟩
abbrev S1x1x128 : Shape := ⟨3, ![1, 1, 128]⟩
abbrev S_ : Shape := ⟨0, ![]⟩
abbrev S512x256 : Shape := ⟨2, ![512, 256]⟩
abbrev S512x256x1 : Shape := ⟨3, ![512, 256, 1]⟩

abbrev nBuf : Space → Nat
  | .hbm => 87
  | .vmem => 0
  | .smem => 0
  | _ => 0

abbrev bufTy : (tb : Table) → Fin (tcTables nBuf tb) → BufTy
  | .hbm, ⟨0, _⟩ => ⟨S512x256x128, .f32⟩
  | .hbm, ⟨1, _⟩ => ⟨S512x256x256, .i32⟩
  | .hbm, ⟨2, _⟩ => ⟨S128x1, .f32⟩
  | .hbm, ⟨3, _⟩ => ⟨S128x1, .f32⟩
  | .hbm, ⟨4, _⟩ => ⟨S128x1, .f32⟩
  | .hbm, ⟨5, _⟩ => ⟨S128x1, .f32⟩
  | .hbm, ⟨6, _⟩ => ⟨S128, .f32⟩
  | .hbm, ⟨7, _⟩ => ⟨S1x1x128, .f32⟩
  | .hbm, ⟨8, _⟩ => ⟨S512x256x128, .f32⟩
  | .hbm, ⟨9, _⟩ => ⟨S512x256x128, .f32⟩
  | .hbm, ⟨10, _⟩ => ⟨S512x256x256, .f32⟩
  | .hbm, ⟨11, _⟩ => ⟨S_, .f32⟩
  | .hbm, ⟨12, _⟩ => ⟨S512x256x256, .f32⟩
  | .hbm, ⟨13, _⟩ => ⟨S512x256x256, .i1⟩
  | .hbm, ⟨14, _⟩ => ⟨S_, .f32⟩
  | .hbm, ⟨15, _⟩ => ⟨S512x256x256, .f32⟩
  | .hbm, ⟨16, _⟩ => ⟨S512x256x256, .f32⟩
  | .hbm, ⟨17, _⟩ => ⟨S512x256x256, .f32⟩
  | .hbm, ⟨18, _⟩ => ⟨S128, .f32⟩
  | .hbm, ⟨19, _⟩ => ⟨S1x1x128, .f32⟩
  | .hbm, ⟨20, _⟩ => ⟨S512x256x128, .f32⟩
  | .hbm, ⟨21, _⟩ => ⟨S512x256x128, .f32⟩
  | .hbm, ⟨22, _⟩ => ⟨S512x256x256, .f32⟩
  | .hbm, ⟨23, _⟩ => ⟨S_, .f32⟩
  | .hbm, ⟨24, _⟩ => ⟨S512x256x256, .f32⟩
  | .hbm, ⟨25, _⟩ => ⟨S512x256x256, .i1⟩
  | .hbm, ⟨26, _⟩ => ⟨S_, .f32⟩
  | .hbm, ⟨27, _⟩ => ⟨S512x256x256, .f32⟩
  | .hbm, ⟨28, _⟩ => ⟨S512x256x256, .f32⟩
  | .hbm, ⟨29, _⟩ => ⟨S512x256x256, .f32⟩
  | .hbm, ⟨30, _⟩ => ⟨S128, .f32⟩
  | .hbm, ⟨31, _⟩ => ⟨S1x1x128, .f32⟩
  | .hbm, ⟨32, _⟩ => ⟨S512x256x128, .f32⟩
  | .hbm, ⟨33, _⟩ => ⟨S512x256x128, .f32⟩
  | .hbm, ⟨34, _⟩ => ⟨S512x256x256, .f32⟩
  | .hbm, ⟨35, _⟩ => ⟨S_, .f32⟩
  | .hbm, ⟨36, _⟩ => ⟨S512x256x256, .f32⟩
  | .hbm, ⟨37, _⟩ => ⟨S512x256x256, .i1⟩
  | .hbm, ⟨38, _⟩ => ⟨S_, .f32⟩
  | .hbm, ⟨39, _⟩ => ⟨S512x256x256, .f32⟩
  | .hbm, ⟨40, _⟩ => ⟨S512x256x256, .f32⟩
  | .hbm, ⟨41, _⟩ => ⟨S512x256x256, .f32⟩
  | .hbm, ⟨42, _⟩ => ⟨S128, .f32⟩
  | .hbm, ⟨43, _⟩ => ⟨S1x1x128, .f32⟩
  | .hbm, ⟨44, _⟩ => ⟨S512x256x128, .f32⟩
  | .hbm, ⟨45, _⟩ => ⟨S512x256x128, .f32⟩
  | .hbm, ⟨46, _⟩ => ⟨S512x256x256, .f32⟩
  | .hbm, ⟨47, _⟩ => ⟨S_, .f32⟩
  | .hbm, ⟨48, _⟩ => ⟨S512x256x256, .f32⟩
  | .hbm, ⟨49, _⟩ => ⟨S512x256x256, .i1⟩
  | .hbm, ⟨50, _⟩ => ⟨S_, .f32⟩
  | .hbm, ⟨51, _⟩ => ⟨S512x256x256, .f32⟩
  | .hbm, ⟨52, _⟩ => ⟨S512x256x256, .f32⟩
  | .hbm, ⟨53, _⟩ => ⟨S512x256x256, .f32⟩
  | .hbm, ⟨54, _⟩ => ⟨S_, .f32⟩
  | .hbm, ⟨55, _⟩ => ⟨S512x256x256, .f32⟩
  | .hbm, ⟨56, _⟩ => ⟨S_, .i32⟩
  | .hbm, ⟨57, _⟩ => ⟨S512x256x256, .i32⟩
  | .hbm, ⟨58, _⟩ => ⟨S512x256x256, .i1⟩
  | .hbm, ⟨59, _⟩ => ⟨S512x256x256, .f32⟩
  | .hbm, ⟨60, _⟩ => ⟨S_, .i32⟩
  | .hbm, ⟨61, _⟩ => ⟨S512x256x256, .i32⟩
  | .hbm, ⟨62, _⟩ => ⟨S512x256x256, .i1⟩
  | .hbm, ⟨63, _⟩ => ⟨S512x256x256, .f32⟩
  | .hbm, ⟨64, _⟩ => ⟨S_, .i32⟩
  | .hbm, ⟨65, _⟩ => ⟨S512x256x256, .i32⟩
  | .hbm, ⟨66, _⟩ => ⟨S512x256x256, .i1⟩
  | .hbm, ⟨67, _⟩ => ⟨S512x256x256, .f32⟩
  | .hbm, ⟨68, _⟩ => ⟨S_, .i32⟩
  | .hbm, ⟨69, _⟩ => ⟨S512x256x256, .i32⟩
  | .hbm, ⟨70, _⟩ => ⟨S512x256x256, .i1⟩
  | .hbm, ⟨71, _⟩ => ⟨S512x256x256, .f32⟩
  | .hbm, ⟨72, _⟩ => ⟨S_, .f32⟩
  | .hbm, ⟨73, _⟩ => ⟨S512x256, .f32⟩
  | .hbm, ⟨74, _⟩ => ⟨S_, .f32⟩
  | .hbm, ⟨75, _⟩ => ⟨S512x256, .f32⟩
  | .hbm, ⟨76, _⟩ => ⟨S512x256, .f32⟩
  | .hbm, ⟨77, _⟩ => ⟨S512x256x1, .f32⟩
  | .hbm, ⟨78, _⟩ => ⟨S512x256x256, .f32⟩
  | .hbm, ⟨79, _⟩ => ⟨S512x256x256, .f32⟩
  | .hbm, ⟨80, _⟩ => ⟨S512x256x256, .f32⟩
  | .hbm, ⟨81, _⟩ => ⟨S_, .f32⟩
  | .hbm, ⟨82, _⟩ => ⟨S512x256, .f32⟩
  | .hbm, ⟨83, _⟩ => ⟨S512x256x1, .f32⟩
  | .hbm, ⟨84, _⟩ => ⟨S512x256x256, .f32⟩
  | .hbm, ⟨85, _⟩ => ⟨S512x256x256, .f32⟩
  | .hbm, ⟨86, _⟩ => ⟨S512x256x128, .f32⟩
  | _, _ => ⟨S512x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  shapeCasts_S128x1_S128 : S128x1.ShapeCasts S128
  bcast_S128_S1x1x128_2 : S128.BroadcastsInDim S1x1x128 (![2] : Fin 1 → Fin S1x1x128.rank)
  bcast_S1x1x128_S512x256x128_0_1_2 : S1x1x128.BroadcastsInDim S512x256x128 (![0, 1, 2] : Fin 3 → Fin S512x256x128.rank)
  bcast_S_S512x256x256 : S_.BroadcastsInDim S512x256x256 (![] : Fin 0 → Fin S512x256x256.rank)
  reducesTo_S512x256x256_S512x256_d2 : S512x256x256.ReducesTo [2] S512x256
  h_S_ : 0 < S_.numel
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S512x256x1_S512x256x256_0_1_2 : S512x256x1.BroadcastsInDim S512x256x256 (![0, 1, 2] : Fin 3 → Fin S512x256x256.rank)
  dot_S512x256x128_S512x256x128_S512x256x256_2_2_1_1_0_0_wf : DotDims.WF S512x256x128 S512x256x128 S512x256x256 [2] [2] [1] [1] [0] [0]
  dot_S512x256x256_S512x256x128_S512x256x128_2_1_1_2_0_0_wf : DotDims.WF S512x256x256 S512x256x128 S512x256x128 [2] [1] [1] [2] [0] [0]

variable [Facts₀]

def dot_S512x256x128_S512x256x128_S512x256x256_2_2_1_1_0_0 : DotDims S512x256x128 S512x256x128 S512x256x256 where
  lhsContracting := [2]
  rhsContracting := [2]
  lhsNonContracting := [1]
  rhsNonContracting := [1]
  lhsBatch := [0]
  rhsBatch := [0]
  wf := dot_S512x256x128_S512x256x128_S512x256x256_2_2_1_1_0_0_wf
def dot_S512x256x256_S512x256x128_S512x256x128_2_1_1_2_0_0 : DotDims S512x256x256 S512x256x128 S512x256x128 where
  lhsContracting := [2]
  rhsContracting := [1]
  lhsNonContracting := [1]
  rhsNonContracting := [2]
  lhsBatch := [0]
  rhsBatch := [0]
  wf := dot_S512x256x256_S512x256x128_S512x256x128_2_1_1_2_0_0_wf

class Facts : Prop extends Facts₀ where

variable [Facts]
-- ==== Proof.BlockLayout.lean ====
/-
  The kernel's block operations that are not pointwise, read at an index `(b, i, ·)` of an eight-batch block.

  A feature weighting arrives as one row `[1, 128]` and is spread over the block `[8, 256, 128]`: entry `(b, i, k)` is the
  row's entry `k`. A per-row number `[8, 256]` (a row's greatest score, a row's sum) is stood up as a column `[8, 256, 1]`
  and spread along the last axis: entry `(b, i, j)` is the number of row `(b, i)`. The two matrix products keep the batch
  axis: scores contract the feature axis of both operands, `(b, i, j) ↦ ∑ₖ l (b, i, k) · r (b, j, k)`, and the result
  contracts the node axis, `(b, i, d) ↦ ∑ⱼ l (b, i, j) · r (b, j, d)`. The two reductions run along the last axis:
  `(b, i) ↦` the fold of `max` from −∞, and the sum, of `s (b, i, j)` over `j`.
-/
import proofs.«110372_j84241488544072_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx
open scoped BigOperators

/-- A row of 128 numbers spread over the block: entry `(b, i, k)` is the row's entry `k`. -/
theorem spreadRow_apply (a : FVec Ideal S1x128 .f32) (b : Fin 8) (i : Fin 256) (k : Fin 128) :
    broadcastTo S8x256x128 (shapeCast S1x1x128 (shapeCast S1x128 a shapeCasts_S1x128_S1x128) shapeCasts_S1x128_S1x1x128)
      broadcasts_S1x1x128_S8x256x128 (ix3 b i k) = a (ix2 0 k) := by
  rw [shapeCast_self]
  rw [broadcastTo_apply _ broadcasts_S1x1x128_S8x256x128 (ix3 b i k) (ix3 0 0 k) (fun ax => by
    match ax with
    | ⟨0, _⟩ => rfl
    | ⟨1, _⟩ => rfl
    | ⟨2, _⟩ => show k.val = if (128 : Nat) = 1 then 0 else k.val; rw [if_neg (by decide)])]
  exact shapeCast_apply a shapeCasts_S1x128_S1x1x128 (ix3 0 0 k) (ix2 0 k) (by
    rw [Shape.rowMajor_val_two, Shape.rowMajor_val_three]; rfl)

/-- A number per row stood up as a column and spread along the last axis: entry `(b, i, j)` is row `(b, i)`'s number. -/
theorem spreadColumn_apply (v : FVec Ideal S8x256 .f32) (b : Fin 8) (i j : Fin 256) :
    broadcastTo S8x256x256 (shapeCast S8x256x1 v shapeCasts_S8x256_S8x256x1) broadcasts_S8x256x1_S8x256x256 (ix3 b i j)
      = v (ix2 b i) := by
  rw [broadcastTo_apply _ broadcasts_S8x256x1_S8x256x256 (ix3 b i j) (ix3 b i 0) (fun ax => by
    match ax with
    | ⟨0, _⟩ => show b.val = if (8 : Nat) = 1 then 0 else b.val; rw [if_neg (by decide)]
    | ⟨1, _⟩ => show i.val = if (256 : Nat) = 1 then 0 else i.val; rw [if_neg (by decide)]
    | ⟨2, _⟩ => rfl)]
  exact shapeCast_apply v shapeCasts_S8x256_S8x256x1 (ix3 b i 0) (ix2 b i) (by
    rw [Shape.rowMajor_val_two, Shape.rowMajor_val_three]
    show b.val * 256 + i.val = (b.val * 256 + i.val) * 1 + 0
    omega)

/-! ## The two matrix products -/

/-! The coordinates of the score product's operand indices, one axis at a time. -/
theorem scoreDot_lhs_0 (i : S8x256x256.Idx) (q : dot_S8x256x128_S8x256x128_S8x256x256_2_2_1_1_0_0.contr.Idx) :
    (dot_S8x256x128_S8x256x128_S8x256x256_2_2_1_1_0_0.lhsIdx i q 0).val = (i 0).val := by
  unfold DotDims.lhsIdx
  rw [dif_pos (show (0 : Fin S8x256x128.rank) ∈ dot_S8x256x128_S8x256x128_S8x256x256_2_2_1_1_0_0.lhsBatch by decide)]
  rfl
theorem scoreDot_lhs_1 (i : S8x256x256.Idx) (q : dot_S8x256x128_S8x256x128_S8x256x256_2_2_1_1_0_0.contr.Idx) :
    (dot_S8x256x128_S8x256x128_S8x256x256_2_2_1_1_0_0.lhsIdx i q 1).val = (i 1).val := by
  unfold DotDims.lhsIdx
  rw [dif_neg (show ¬(1 : Fin S8x256x128.rank) ∈ dot_S8x256x128_S8x256x128_S8x256x256_2_2_1_1_0_0.lhsBatch by decide), dif_pos (show (1 : Fin S8x256x128.rank) ∈ dot_S8x256x128_S8x256x128_S8x256x256_2_2_1_1_0_0.lhsNonContracting by decide)]
  rfl
theorem scoreDot_lhs_2 (i : S8x256x256.Idx) (q : dot_S8x256x128_S8x256x128_S8x256x256_2_2_1_1_0_0.contr.Idx) :
    (dot_S8x256x128_S8x256x128_S8x256x256_2_2_1_1_0_0.lhsIdx i q 2).val = (q ⟨0, by decide⟩).val :=
  dot_S8x256x128_S8x256x128_S8x256x256_2_2_1_1_0_0.lhsIdx_val_of_single rfl i q
theorem scoreDot_rhs_0 (i : S8x256x256.Idx) (q : dot_S8x256x128_S8x256x128_S8x256x256_2_2_1_1_0_0.contr.Idx) :
    (dot_S8x256x128_S8x256x128_S8x256x256_2_2_1_1_0_0.rhsIdx i q 0).val = (i 0).val := by
  unfold DotDims.rhsIdx
  rw [dif_pos (show (0 : Fin S8x256x128.rank) ∈ dot_S8x256x128_S8x256x128_S8x256x256_2_2_1_1_0_0.rhsBatch by decide)]
  rfl
theorem scoreDot_rhs_1 (i : S8x256x256.Idx) (q : dot_S8x256x128_S8x256x128_S8x256x256_2_2_1_1_0_0.contr.Idx) :
    (dot_S8x256x128_S8x256x128_S8x256x256_2_2_1_1_0_0.rhsIdx i q 1).val = (i 2).val := by
  unfold DotDims.rhsIdx
  rw [dif_neg (show ¬(1 : Fin S8x256x128.rank) ∈ dot_S8x256x128_S8x256x128_S8x256x256_2_2_1_1_0_0.rhsBatch by decide), dif_pos (show (1 : Fin S8x256x128.rank) ∈ dot_S8x256x128_S8x256x128_S8x256x256_2_2_1_1_0_0.rhsNonContracting by decide)]
  rfl
theorem scoreDot_rhs_2 (i : S8x256x256.Idx) (q : dot_S8x256x128_S8x256x128_S8x256x256_2_2_1_1_0_0.contr.Idx) :
    (dot_S8x256x128_S8x256x128_S8x256x256_2_2_1_1_0_0.rhsIdx i q 2).val = (q ⟨0, by decide⟩).val :=
  dot_S8x256x128_S8x256x128_S8x256x256_2_2_1_1_0_0.rhsIdx_val_of_single rfl i q

/-- In the score product, at result `(b, i, j)` and contraction position `k`, the left operand is read at `(b, i, k)`, -/
theorem scoreDot_lhsIdx (b : Fin 8) (i j : Fin 256) (k : Fin 128) :
    dot_S8x256x128_S8x256x128_S8x256x256_2_2_1_1_0_0.lhsIdx (ix3 b i j) ((contrEquiv1 dot_S8x256x128_S8x256x128_S8x256x256_2_2_1_1_0_0 128 rfl rfl).symm k) = ix3 b i k :=
  funext fun ax => Fin.ext (by
    have hk := contrEquiv1_symm_val dot_S8x256x128_S8x256x128_S8x256x256_2_2_1_1_0_0 128 rfl rfl k
    match ax with
    | ⟨0, _⟩ => exact scoreDot_lhs_0 _ _
    | ⟨1, _⟩ => exact scoreDot_lhs_1 _ _
    | ⟨2, _⟩ => exact (scoreDot_lhs_2 _ _).trans hk)

/-- and the right operand at `(b, j, k)`: row `j` of the same batch. -/
theorem scoreDot_rhsIdx (b : Fin 8) (i j : Fin 256) (k : Fin 128) :
    dot_S8x256x128_S8x256x128_S8x256x256_2_2_1_1_0_0.rhsIdx (ix3 b i j) ((contrEquiv1 dot_S8x256x128_S8x256x128_S8x256x256_2_2_1_1_0_0 128 rfl rfl).symm k) = ix3 b j k :=
  funext fun ax => Fin.ext (by
    have hk := contrEquiv1_symm_val dot_S8x256x128_S8x256x128_S8x256x256_2_2_1_1_0_0 128 rfl rfl k
    match ax with
    | ⟨0, _⟩ => exact scoreDot_rhs_0 _ _
    | ⟨1, _⟩ => exact scoreDot_rhs_1 _ _
    | ⟨2, _⟩ => exact (scoreDot_rhs_2 _ _).trans hk)

/-- The score product into the zero accumulator at `(b, i, j)`: `∑ₖ l (b, i, k) · r (b, j, k)`. -/
theorem scoreMatmul_apply {φ₁ φ₂ : FTy} (l : FVec Ideal S8x256x128 φ₁) (r : FVec Ideal S8x256x128 φ₂) (b : Fin 8) (i j : Fin 256) :
    matmul dot_S8x256x128_S8x256x128_S8x256x256_2_2_1_1_0_0 none l r (constant S8x256x256 .f32 0x00000000#32) (ix3 b i j)
      = ∑ k : Fin 128, l (ix3 b i k) * r (ix3 b j k) := by
  refine (Ideal.matmul_constant_zero_apply dot_S8x256x128_S8x256x128_S8x256x256_2_2_1_1_0_0 none l r (ix3 b i j)).trans ?_
  rw [← Equiv.sum_comp (contrEquiv1 dot_S8x256x128_S8x256x128_S8x256x256_2_2_1_1_0_0 128 rfl rfl).symm]
  refine Finset.sum_congr rfl fun k _ => ?_
  rw [scoreDot_lhsIdx, scoreDot_rhsIdx]

/-! The coordinates of the result product's operand indices, one axis at a time. -/
theorem mixDot_lhs_0 (i : S8x256x128.Idx) (q : dot_S8x256x256_S8x256x128_S8x256x128_2_1_1_2_0_0.contr.Idx) :
    (dot_S8x256x256_S8x256x128_S8x256x128_2_1_1_2_0_0.lhsIdx i q 0).val = (i 0).val := by
  unfold DotDims.lhsIdx
  rw [dif_pos (show (0 : Fin S8x256x256.rank) ∈ dot_S8x256x256_S8x256x128_S8x256x128_2_1_1_2_0_0.lhsBatch by decide)]
  rfl
theorem mixDot_lhs_1 (i : S8x256x128.Idx) (q : dot_S8x256x256_S8x256x128_S8x256x128_2_1_1_2_0_0.contr.Idx) :
    (dot_S8x256x256_S8x256x128_S8x256x128_2_1_1_2_0_0.lhsIdx i q 1).val = (i 1).val := by
  unfold DotDims.lhsIdx
  rw [dif_neg (show ¬(1 : Fin S8x256x256.rank) ∈ dot_S8x256x256_S8x256x128_S8x256x128_2_1_1_2_0_0.lhsBatch by decide), dif_pos (show (1 : Fin S8x256x256.rank) ∈ dot_S8x256x256_S8x256x128_S8x256x128_2_1_1_2_0_0.lhsNonContracting by decide)]
  rfl
theorem mixDot_lhs_2 (i : S8x256x128.Idx) (q : dot_S8x256x256_S8x256x128_S8x256x128_2_1_1_2_0_0.contr.Idx) :
    (dot_S8x256x256_S8x256x128_S8x256x128_2_1_1_2_0_0.lhsIdx i q 2).val = (q ⟨0, by decide⟩).val :=
  dot_S8x256x256_S8x256x128_S8x256x128_2_1_1_2_0_0.lhsIdx_val_of_single rfl i q
theorem mixDot_rhs_0 (i : S8x256x128.Idx) (q : dot_S8x256x256_S8x256x128_S8x256x128_2_1_1_2_0_0.contr.Idx) :
    (dot_S8x256x256_S8x256x128_S8x256x128_2_1_1_2_0_0.rhsIdx i q 0).val = (i 0).val := by
  unfold DotDims.rhsIdx
  rw [dif_pos (show (0 : Fin S8x256x128.rank) ∈ dot_S8x256x256_S8x256x128_S8x256x128_2_1_1_2_0_0.rhsBatch by decide)]
  rfl
theorem mixDot_rhs_1 (i : S8x256x128.Idx) (q : dot_S8x256x256_S8x256x128_S8x256x128_2_1_1_2_0_0.contr.Idx) :
    (dot_S8x256x256_S8x256x128_S8x256x128_2_1_1_2_0_0.rhsIdx i q 1).val = (q ⟨0, by decide⟩).val :=
  dot_S8x256x256_S8x256x128_S8x256x128_2_1_1_2_0_0.rhsIdx_val_of_single rfl i q
theorem mixDot_rhs_2 (i : S8x256x128.Idx) (q : dot_S8x256x256_S8x256x128_S8x256x128_2_1_1_2_0_0.contr.Idx) :
    (dot_S8x256x256_S8x256x128_S8x256x128_2_1_1_2_0_0.rhsIdx i q 2).val = (i 2).val := by
  unfold DotDims.rhsIdx
  rw [dif_neg (show ¬(2 : Fin S8x256x128.rank) ∈ dot_S8x256x256_S8x256x128_S8x256x128_2_1_1_2_0_0.rhsBatch by decide), dif_pos (show (2 : Fin S8x256x128.rank) ∈ dot_S8x256x256_S8x256x128_S8x256x128_2_1_1_2_0_0.rhsNonContracting by decide)]
  rfl

/-- In the result product, at result `(b, i, d)` and contraction position `j`, the left operand is read at `(b, i, j)`, -/
theorem mixDot_lhsIdx (b : Fin 8) (i : Fin 256) (d : Fin 128) (j : Fin 256) :
    dot_S8x256x256_S8x256x128_S8x256x128_2_1_1_2_0_0.lhsIdx (ix3 b i d) ((contrEquiv1 dot_S8x256x256_S8x256x128_S8x256x128_2_1_1_2_0_0 256 rfl rfl).symm j) = ix3 b i j :=
  funext fun ax => Fin.ext (by
    have hk := contrEquiv1_symm_val dot_S8x256x256_S8x256x128_S8x256x128_2_1_1_2_0_0 256 rfl rfl j
    match ax with
    | ⟨0, _⟩ => exact mixDot_lhs_0 _ _
    | ⟨1, _⟩ => exact mixDot_lhs_1 _ _
    | ⟨2, _⟩ => exact (mixDot_lhs_2 _ _).trans hk)

/-- and the right operand at `(b, j, d)`: node `j`'s feature `d`. -/
theorem mixDot_rhsIdx (b : Fin 8) (i : Fin 256) (d : Fin 128) (j : Fin 256) :
    dot_S8x256x256_S8x256x128_S8x256x128_2_1_1_2_0_0.rhsIdx (ix3 b i d) ((contrEquiv1 dot_S8x256x256_S8x256x128_S8x256x128_2_1_1_2_0_0 256 rfl rfl).symm j) = ix3 b j d :=
  funext fun ax => Fin.ext (by
    have hk := contrEquiv1_symm_val dot_S8x256x256_S8x256x128_S8x256x128_2_1_1_2_0_0 256 rfl rfl j
    match ax with
    | ⟨0, _⟩ => exact mixDot_rhs_0 _ _
    | ⟨1, _⟩ => exact (mixDot_rhs_1 _ _).trans hk
    | ⟨2, _⟩ => exact mixDot_rhs_2 _ _)

/-- The result product into the zero accumulator at `(b, i, d)`: `∑ⱼ l (b, i, j) · r (b, j, d)`. -/
theorem mixMatmul_apply {φ₁ φ₂ : FTy} (l : FVec Ideal S8x256x256 φ₁) (r : FVec Ideal S8x256x128 φ₂) (b : Fin 8) (i : Fin 256) (d : Fin 128) :
    matmul dot_S8x256x256_S8x256x128_S8x256x128_2_1_1_2_0_0 none l r (constant S8x256x128 .f32 0x00000000#32) (ix3 b i d)
      = ∑ j : Fin 256, l (ix3 b i j) * r (ix3 b j d) := by
  refine (Ideal.matmul_constant_zero_apply dot_S8x256x256_S8x256x128_S8x256x128_2_1_1_2_0_0 none l r (ix3 b i d)).trans ?_
  rw [← Equiv.sum_comp (contrEquiv1 dot_S8x256x256_S8x256x128_S8x256x128_2_1_1_2_0_0 256 rfl rfl).symm]
  refine Finset.sum_congr rfl fun j _ => ?_
  rw [mixDot_lhsIdx, mixDot_rhsIdx]

/-! ## The two reductions along the last axis -/

/-- Row `(b, i)` with the last coordinate `j` put back is `(b, i, j)`. -/
theorem lastAxis_lift (b : Fin 8) (i j : Fin 256) :
    reduces_S8x256x256_S8x256.lift (ix2 b i) j = ix3 b i j :=
  funext fun ax => Fin.ext (by
    match ax with
    | ⟨0, _⟩ => rfl
    | ⟨1, _⟩ => rfl
    | ⟨2, _⟩ => rfl)

/-- A row's greatest entry: the fold of `max` from −∞ over the row. -/
theorem rowMaxima_apply (s : FVec Ideal S8x256x256 .f32) (hφ : FKind.Formats .f32)
    (hacc : (0xFF800000#32 : BitVec 32) = FKind.maximumf.neutral .f32 hφ) (b : Fin 8) (i : Fin 256) :
    multiReduction .maximumf [2] S8x256 s 0xFF800000#32 reduces_S8x256x256_S8x256 hφ hacc (ix2 b i)
      = (Finset.univ : Finset (Fin 256)).fold max (Ideal.ofBits .f32 0xFF800000#32) (fun j => s (ix3 b i j)) := by
  refine (Ideal.multiReduction_maximumf_single s 0xFF800000#32 reduces_S8x256x256_S8x256 hφ hacc (ix2 b i)).trans ?_
  exact congrArg (fun f : Fin 256 → EReal => (Finset.univ : Finset (Fin 256)).fold max (Ideal.ofBits .f32 0xFF800000#32) f)
    (funext fun j => congrArg s (lastAxis_lift b i j))

/-- A row's sum. -/
theorem rowSums_apply (s : FVec Ideal S8x256x256 .f32) (hφ : FKind.Formats .f32)
    (hacc : (0x00000000#32 : BitVec 32) = FKind.add.neutral .f32 hφ) (b : Fin 8) (i : Fin 256) :
    multiReduction .add [2] S8x256 s 0x00000000#32 reduces_S8x256x256_S8x256 hφ hacc (ix2 b i)
      = ∑ j : Fin 256, s (ix3 b i j) := by
  refine (Ideal.multiReduction_add_single s 0x00000000#32 reduces_S8x256x256_S8x256 hφ hacc (ix2 b i)).trans ?_
  exact Finset.sum_congr rfl fun j _ => congrArg s (lastAxis_lift b i j)

end Cert.KernelIdeal.Block

end
-- ==== Proof.Attention.lean ====
/-
  One batch of relation-typed graph attention, on the extended reals.

  A batch has 256 nodes with 128 features each (`h i k`), an integer relation label `adj i j` on every ordered pair of
  nodes, and four feature weightings `a₀ … a₃`, one per relation. For a weighting `a` the raw score of the pair `(i, j)`
  is the weighted inner product `∑ₖ (h i k · a k) · h j k`; it is passed through the leaky rectifier (the identity on
  the positive numbers, multiplication by the slope elsewhere). The pair's score is the rectified score of the relation
  its label names (label `r + 1` names `a_r`; a later label overrides an earlier one), and a fixed large negative number
  when the label names none. Each row of scores is turned into weights by the soft maximum — subtract the row's greatest
  entry, exponentiate, divide by the row's sum — and node `i`'s result is the weighted sum `∑ⱼ weight i j · h j d` of all
  nodes' features.

  Every function here is written for one batch and over literal extents, with the four numbers the two programs spell
  kept as the words they spell them with.
-/
import Idealize.ShloMosaic.PureOps.Ideal.Laws
import Idealize.ShloMosaic.Lib.ValueIdx

noncomputable section

namespace Cert.GraphAttn

open Idealize.ShloMosaic
open scoped BigOperators

/-- Zero, as both programs spell it. -/
abbrev zeroLit : EReal := Ideal.ofBits .f32 0x00000000#32
/-- The rectifier's slope: the single-precision number nearest one fifth. -/
abbrev slopeLit : EReal := Ideal.ofBits .f32 0x3E4CCCCD#32
/-- The score of a pair whose label names no relation: the single-precision number nearest −9·10¹⁵. -/
abbrev maskLit : EReal := Ideal.ofBits .f32 0xD9FFCB9E#32
/-- The value a row's maximum starts from: −∞. -/
abbrev negInfLit : EReal := Ideal.ofBits .f32 0xFF800000#32

/-- The weighted inner product of nodes `i` and `j`: `∑ₖ (h i k · a k) · h j k`. -/
def raw (h : Fin 256 → Fin 128 → EReal) (a : Fin 128 → EReal) (i j : Fin 256) : EReal :=
  ∑ k : Fin 128, (h i k * a k) * h j k

/-- The leaky rectifier: `x` where `x` is positive, `slope · x` elsewhere. -/
def leaky (x : EReal) : EReal :=
  Scalar.select (Ideal.cmp .ogt x zeroLit) x (slopeLit * x)

/-- The score of the pair `(i, j)`: the rectified raw score under the weighting its label names, label 4 looked at
    first and label 1 last; the mask value under any other label. -/
def score (h : Fin 256 → Fin 128 → EReal) (adj : Fin 256 → Fin 256 → BitVec 32) (a0 a1 a2 a3 : Fin 128 → EReal)
    (i j : Fin 256) : EReal :=
  Scalar.select (IntOp.cmpi .eq (adj i j) 4#32) (leaky (raw h a3 i j))
    (Scalar.select (IntOp.cmpi .eq (adj i j) 3#32) (leaky (raw h a2 i j))
      (Scalar.select (IntOp.cmpi .eq (adj i j) 2#32) (leaky (raw h a1 i j))
        (Scalar.select (IntOp.cmpi .eq (adj i j) 1#32) (leaky (raw h a0 i j)) maskLit)))

/-- The greatest entry of row `i` of a score matrix, taken from −∞ (and once more against −∞, as both programs do). -/
def rowMax (s : Fin 256 → Fin 256 → EReal) (i : Fin 256) : EReal :=
  max negInfLit ((Finset.univ : Finset (Fin 256)).fold max negInfLit (s i))

/-- The exponential of an entry's distance below its row's greatest entry. -/
def expo (s : Fin 256 → Fin 256 → EReal) (i j : Fin 256) : EReal :=
  Ideal.exp (s i j - rowMax s i)

/-- The sum of a row's exponentials. -/
def denom (s : Fin 256 → Fin 256 → EReal) (i : Fin 256) : EReal :=
  ∑ j : Fin 256, expo s i j

/-- The soft maximum's weight of the pair `(i, j)`. -/
def weight (s : Fin 256 → Fin 256 → EReal) (i j : Fin 256) : EReal :=
  Ideal.div (expo s i j) (denom s i)

/-- Node `i`'s result in feature `d`: every node's feature `d`, weighted by row `i` of the soft maximum of the scores. -/
def attend (h : Fin 256 → Fin 128 → EReal) (adj : Fin 256 → Fin 256 → BitVec 32) (a0 a1 a2 a3 : Fin 128 → EReal)
    (i : Fin 256) (d : Fin 128) : EReal :=
  ∑ j : Fin 256, weight (score h adj a0 a1 a2 a3) i j * h j d

/-! ## All 512 batches -/

open Idealize.ShloMosaic.ValueIdx in
/-- The whole result array: entry `(B, i, d)` is batch `B`'s attention at node `i`, feature `d`, under the four weightings
    read down the one column each is given as. No entry depends on another batch. -/
def attendAll (X0 : (⟨3, ![512, 256, 128]⟩ : Shape).Idx → EReal) (X1 : (⟨3, ![512, 256, 256]⟩ : Shape).Idx → BitVec 32)
    (X2 X3 X4 X5 : (⟨2, ![128, 1]⟩ : Shape).Idx → EReal) : (⟨3, ![512, 256, 128]⟩ : Shape).Idx → EReal :=
  fun I =>
    have B : Fin 512 := I 0
    have i : Fin 256 := I 1
    have d : Fin 128 := I 2
    attend (fun i k => X0 (ix3 B i k)) (fun i j => X1 (ix3 B i j))
      (fun k => X2 (ix2 k 0)) (fun k => X3 (ix2 k 0)) (fun k => X4 (ix2 k 0)) (fun k => X5 (ix2 k 0)) i d

open Idealize.ShloMosaic.ValueIdx in
theorem attendAll_apply (X0 : (⟨3, ![512, 256, 128]⟩ : Shape).Idx → EReal) (X1 : (⟨3, ![512, 256, 256]⟩ : Shape).Idx → BitVec 32)
    (X2 X3 X4 X5 : (⟨2, ![128, 1]⟩ : Shape).Idx → EReal) (B : Fin 512) (i : Fin 256) (d : Fin 128) :
    attendAll X0 X1 X2 X3 X4 X5 (ix3 B i d)
      = attend (fun i k => X0 (ix3 B i k)) (fun i j => X1 (ix3 B i j))
          (fun k => X2 (ix2 k 0)) (fun k => X3 (ix2 k 0)) (fun k => X4 (ix2 k 0)) (fun k => X5 (ix2 k 0)) i d := rfl

end Cert.GraphAttn

end
-- ==== Proof.BlockValue.lean ====
/-
  What the kernel's body computes from one eight-batch block, entry by entry.

  Batch `b` of a block is a problem of its own: its features are `x0 (b, ·, ·)`, its labels `x1 (b, ·, ·)`, and the four
  weightings are the four rows the body loads. The body's arithmetic is cut here into four stages — one relation's
  rectified scores, the scores selected by label, the soft maximum's weights, the weighted sum of features — and each
  stage, read at `(b, i, ·)`, is the corresponding function of batch `b` alone: no entry of the block's result
  depends on another batch. The changes of float format in the body are the identity on the extended reals.
-/
import proofs.«110372_j84241488544072_1_alg».proof.Proof.Gen.KernelIdeal.Skeleton
import proofs.«110372_j84241488544072_1_alg».proof.Proof.BlockLayout
import proofs.«110372_j84241488544072_1_alg».proof.Proof.Attention

noncomputable section

namespace Cert.KernelIdeal.Block

open Cert.KernelIdeal Cert.KernelIdeal.Gen Idealize.ShloMosaic Idealize.ShloMosaic.ValueIdx Cert.GraphAttn
open scoped BigOperators

/-- Batch `b`'s features. -/
abbrev feat (x0 : Vec Ideal S8x256x128 .f32) (b : Fin 8) : Fin 256 → Fin 128 → EReal := fun i k => x0 (ix3 b i k)
/-- Batch `b`'s relation labels. -/
abbrev labels (x1 : Vec Ideal S8x256x256 .i32) (b : Fin 8) : Fin 256 → Fin 256 → BitVec 32 := fun i j => x1 (ix3 b i j)
/-- A weighting, from the one row it is loaded as. -/
abbrev rowOf (a : Vec Ideal S1x128 .f32) : Fin 128 → EReal := fun k => a (ix2 0 k)
/-- Batch `b` of a matrix of scores. -/
abbrev batchOf (s : FVec Ideal S8x256x256 .f32) (b : Fin 8) : Fin 256 → Fin 256 → EReal := fun i j => s (ix3 b i j)

/-! ## One relation's rectified scores -/

/-- The features weighted by a row, multiplied against the features along the feature axis, then rectified. -/
def relScores (x0 : Vec Ideal S8x256x128 .f32) (a : Vec Ideal S1x128 .f32) : FVec Ideal S8x256x256 .f32 :=
  have w : FVec Ideal S8x256x128 .f32 := broadcastTo S8x256x128
    (shapeCast S1x1x128 (shapeCast S1x128 a shapeCasts_S1x128_S1x128) shapeCasts_S1x128_S1x1x128) broadcasts_S1x1x128_S8x256x128
  have r : FVec Ideal S8x256x256 .f32 := matmul dot_S8x256x128_S8x256x128_S8x256x256_2_2_1_1_0_0 none
    (truncf .bf16 (mulf x0 w) bitsLt_bf16_f32) (truncf .bf16 x0 bitsLt_bf16_f32) (constant S8x256x256 .f32 0x00000000#32)
  select (cmpf .ogt r (broadcast S8x256x256 (Scalar.ofBits .f32 0x00000000#32))) r
    (mulf (broadcast S8x256x256 (Scalar.ofBits .f32 0x3E4CCCCD#32)) r)

theorem relScores_apply (x0 : Vec Ideal S8x256x128 .f32) (a : Vec Ideal S1x128 .f32) (b : Fin 8) (i j : Fin 256) :
    relScores x0 a (ix3 b i j) = leaky (raw (feat x0 b) (rowOf a) i j) := by
  have hr : matmul (F := Ideal) dot_S8x256x128_S8x256x128_S8x256x256_2_2_1_1_0_0 none
      (truncf .bf16 (mulf x0 (broadcastTo S8x256x128
        (shapeCast S1x1x128 (shapeCast S1x128 a shapeCasts_S1x128_S1x128) shapeCasts_S1x128_S1x1x128) broadcasts_S1x1x128_S8x256x128)) bitsLt_bf16_f32)
      (truncf .bf16 x0 bitsLt_bf16_f32) (constant S8x256x256 .f32 0x00000000#32) (ix3 b i j)
      = raw (feat x0 b) (rowOf a) i j := by
    refine (scoreMatmul_apply _ _ b i j).trans ?_
    refine Finset.sum_congr rfl fun k _ => ?_
    show (x0 (ix3 b i k) * _) * x0 (ix3 b j k) = (x0 (ix3 b i k) * a (ix2 0 k)) * x0 (ix3 b j k)
    rw [spreadRow_apply]
  show Scalar.select (Ideal.cmp .ogt _ zeroLit) _ (slopeLit * _) = leaky _
  rw [hr]
  rfl

/-! ## The scores, selected by label -/

def blockScores (x0 : Vec Ideal S8x256x128 .f32) (x1 : Vec Ideal S8x256x256 .i32) (a0 a1 a2 a3 : Vec Ideal S1x128 .f32) :
    FVec Ideal S8x256x256 .f32 :=
  select (cmpi .eq x1 (broadcast S8x256x256 4#32)) (relScores x0 a3)
    (select (cmpi .eq x1 (broadcast S8x256x256 3#32)) (relScores x0 a2)
      (select (cmpi .eq x1 (broadcast S8x256x256 2#32)) (relScores x0 a1)
        (select (cmpi .eq x1 (broadcast S8x256x256 1#32)) (relScores x0 a0)
          (broadcast S8x256x256 (Scalar.ofBits .f32 0xD9FFCB9E#32)))))

theorem blockScores_apply (x0 : Vec Ideal S8x256x128 .f32) (x1 : Vec Ideal S8x256x256 .i32) (a0 a1 a2 a3 : Vec Ideal S1x128 .f32)
    (b : Fin 8) (i j : Fin 256) :
    blockScores x0 x1 a0 a1 a2 a3 (ix3 b i j) = score (feat x0 b) (labels x1 b) (rowOf a0) (rowOf a1) (rowOf a2) (rowOf a3) i j := by
  show Scalar.select (IntOp.cmpi .eq (x1 (ix3 b i j)) 4#32) (relScores x0 a3 (ix3 b i j))
      (Scalar.select (IntOp.cmpi .eq (x1 (ix3 b i j)) 3#32) (relScores x0 a2 (ix3 b i j))
        (Scalar.select (IntOp.cmpi .eq (x1 (ix3 b i j)) 2#32) (relScores x0 a1 (ix3 b i j))
          (Scalar.select (IntOp.cmpi .eq (x1 (ix3 b i j)) 1#32) (relScores x0 a0 (ix3 b i j)) maskLit))) = _
  rw [relScores_apply, relScores_apply, relScores_apply, relScores_apply]
  rfl

/-! ## The soft maximum along the last axis -/

/-- Each row's greatest entry. -/
def rowMaxima (s : FVec Ideal S8x256x256 .f32) : FVec Ideal S8x256 .f32 :=
  maximumf (broadcast S8x256 (Scalar.ofBits .f32 0xFF800000#32))
    (multiReduction .maximumf [2] S8x256 s 0xFF800000#32 reduces_S8x256x256_S8x256 (.inl rfl) rfl)

theorem rowMaxima_eq (s : FVec Ideal S8x256x256 .f32) (b : Fin 8) (i : Fin 256) :
    rowMaxima s (ix2 b i) = rowMax (batchOf s b) i := by
  exact congrArg (max negInfLit) (rowMaxima_apply s _ _ b i)

/-- Each entry's exponential, below its row's greatest entry. -/
def expos (s : FVec Ideal S8x256x256 .f32) : FVec Ideal S8x256x256 .f32 :=
  exp (subf s (broadcastTo S8x256x256 (shapeCast S8x256x1 (rowMaxima s) shapeCasts_S8x256_S8x256x1) broadcasts_S8x256x1_S8x256x256))

theorem expos_apply (s : FVec Ideal S8x256x256 .f32) (b : Fin 8) (i j : Fin 256) :
    expos s (ix3 b i j) = expo (batchOf s b) i j := by
  show Ideal.exp (s (ix3 b i j) - _) = Ideal.exp (s (ix3 b i j) - rowMax (batchOf s b) i)
  rw [spreadColumn_apply, rowMaxima_eq]

/-- Each row's sum of exponentials. -/
def rowTotals (s : FVec Ideal S8x256x256 .f32) : FVec Ideal S8x256 .f32 :=
  multiReduction .add [2] S8x256 (expos s) 0x00000000#32 reduces_S8x256x256_S8x256 (.inl rfl) rfl

theorem rowTotals_apply (s : FVec Ideal S8x256x256 .f32) (b : Fin 8) (i : Fin 256) :
    rowTotals s (ix2 b i) = denom (batchOf s b) i := by
  refine (rowSums_apply (expos s) _ _ b i).trans ?_
  exact Finset.sum_congr rfl fun j _ => expos_apply s b i j

/-- The soft maximum's weights. -/
def softWeights (s : FVec Ideal S8x256x256 .f32) : FVec Ideal S8x256x256 .f32 :=
  divf (expos s) (broadcastTo S8x256x256 (shapeCast S8x256x1 (rowTotals s) shapeCasts_S8x256_S8x256x1) broadcasts_S8x256x1_S8x256x256)

theorem softWeights_apply (s : FVec Ideal S8x256x256 .f32) (b : Fin 8) (i j : Fin 256) :
    softWeights s (ix3 b i j) = weight (batchOf s b) i j := by
  show Ideal.div (expos s (ix3 b i j)) _ = Ideal.div (expo (batchOf s b) i j) (denom (batchOf s b) i)
  rw [spreadColumn_apply, rowTotals_apply, expos_apply]

/-! ## The block's result -/

/-- The weights multiplied against the features along the node axis. -/
def blockResult (x0 : Vec Ideal S8x256x128 .f32) (x1 : Vec Ideal S8x256x256 .i32) (a0 a1 a2 a3 : Vec Ideal S1x128 .f32) :
    FVec Ideal S8x256x128 .f32 :=
  matmul dot_S8x256x256_S8x256x128_S8x256x128_2_1_1_2_0_0 none (truncf .bf16 (softWeights (blockScores x0 x1 a0 a1 a2 a3)) bitsLt_bf16_f32)
    (truncf .bf16 x0 bitsLt_bf16_f32) (constant S8x256x128 .f32 0x00000000#32)

/-- Entry `(b, i, d)` of the block's result is batch `b`'s attention at node `i`, feature `d`. -/
theorem blockResult_apply (x0 : Vec Ideal S8x256x128 .f32) (x1 : Vec Ideal S8x256x256 .i32) (a0 a1 a2 a3 : Vec Ideal S1x128 .f32)
    (b : Fin 8) (i : Fin 256) (d : Fin 128) :
    blockResult x0 x1 a0 a1 a2 a3 (ix3 b i d)
      = attend (feat x0 b) (labels x1 b) (rowOf a0) (rowOf a1) (rowOf a2) (rowOf a3) i d := by
  refine (mixMatmul_apply _ _ b i d).trans ?_
  refine Finset.sum_congr rfl fun j _ => ?_
  show softWeights (blockScores x0 x1 a0 a1 a2 a3) (ix3 b i j) * x0 (ix3 b j d) = _
  rw [softWeights_apply]
  have hs : batchOf (blockScores x0 x1 a0 a1 a2 a3) b
      = score (feat x0 b) (labels x1 b) (rowOf a0) (rowOf a1) (rowOf a2) (rowOf a3) :=
    funext fun i' => funext fun j' => blockScores_apply x0 x1 a0 a1 a2 a3 b i' j'
  rw [hs]

/-- The body's one stored value is these stages composed: the rows loaded through windows 2 … 5 weight relations 1 … 4. -/
theorem payload_eq (x0 : Vec Ideal S8x256x128 .f32) (x1 : Vec Ideal S8x256x256 .i32) (x2 x3 x4 x5 : Vec Ideal S1x128 .f32) :
    k0_pay1 x0 (k0_pay2 x0) x1 (k0_pay3 x4) (k0_pay4 x5) (k0_pay5 x0 x1 x2) (k0_pay6 x0 x3) k0_pay7
      = blockResult x0 x1 x2 x3 x4 x5 := rfl

end Cert.KernelIdeal.Block

end
-- ==== Proof.KernelArray.lean ====
/-
  From the kernel's blocks to its result array.

  Grid point `t` of 64 works on batches `8t … 8t + 7`: the feature and label windows' blocks at `t` are those batches of
  the argument arrays, the four weighting windows hold the same one row at every point, and the result window's block at
  `t` is batches `8t … 8t + 7` of the result array. Before the region the host turns each weighting from a column
  `[128, 1]` into a row `[1, 128]` (two changes of shape that keep the order of the entries): the row's entry `k` is the
  column's entry `k`. So what point `t` writes back is block `t` of the attention of all 512 batches, the 64 blocks tile
  the result array, and the array ends holding that attention.
-/
import proofs.«110372_j84241488544072_1_alg».proof.Proof.Gen.KernelIdeal.Value
import proofs.«110372_j84241488544072_1_alg».proof.Proof.BlockValue
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Block Cert.GraphAttn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The weightings as the region finds them -/

/-- A column `[128, 1]` recast to `[128]` and then to a row `[1, 128]`: the row's entry `k` is the column's entry `k`. -/
theorem rowOfColumn_apply (a : S128x1.Idx → EReal) (k : Fin 128) :
    shapeCast S1x128 (shapeCast S128 a shapeCasts_S128x1_S128) shapeCasts_S128_S1x128 (ix2 0 k) = a (ix2 k 0) := by
  rw [shapeCast_apply _ shapeCasts_S128_S1x128 (ix2 0 k) (ix1 k) (by
    rw [Shape.rowMajor_val_one, Shape.rowMajor_val_two]
    show k.val = 0 * 128 + k.val
    omega)]
  exact shapeCast_apply a shapeCasts_S128x1_S128 (ix1 k) (ix2 k 0) (by
    rw [Shape.rowMajor_val_one, Shape.rowMajor_val_two]
    show k.val * 1 + 0 = k.val
    omega)

theorem row1_eq (c : Dev nD) : (V m c main_v1 : S1x128.Idx → EReal)
    = shapeCast S1x128 (shapeCast S128 (m ((c : Thread nD τ).loc main_arg2)) shapeCasts_S128x1_S128) shapeCasts_S128_S1x128 := by
  dsimp only [Gen.V, Gen.hostOps0]; after_results; rfl
theorem row3_eq (c : Dev nD) : (V m c main_v3 : S1x128.Idx → EReal)
    = shapeCast S1x128 (shapeCast S128 (m ((c : Thread nD τ).loc main_arg3)) shapeCasts_S128x1_S128) shapeCasts_S128_S1x128 := by
  dsimp only [Gen.V, Gen.hostOps0]; after_results; rfl
theorem row5_eq (c : Dev nD) : (V m c main_v5 : S1x128.Idx → EReal)
    = shapeCast S1x128 (shapeCast S128 (m ((c : Thread nD τ).loc main_arg4)) shapeCasts_S128x1_S128) shapeCasts_S128_S1x128 := by
  dsimp only [Gen.V, Gen.hostOps0]; after_results; rfl
theorem row7_eq (c : Dev nD) : (V m c main_v7 : S1x128.Idx → EReal)
    = shapeCast S1x128 (shapeCast S128 (m ((c : Thread nD τ).loc main_arg5)) shapeCasts_S128x1_S128) shapeCasts_S128_S1x128 := by
  dsimp only [Gen.V, Gen.hostOps0]; after_results; rfl

/-! ## Where each window's block sits -/

/-- The printed index maps, decided over the 64 grid points: the feature, label and result windows move one block along
    the batch axis per point; the four weighting windows stay at their one block. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0) :=
  (by decide +kernel : ∀ t : Fin grid0.N, _)

theorem point_lt (t : Fin cfg0.N) : t.val < 64 := by
  have hN : cfg0.N = 64 := N_0
  have := t.isLt
  omega

/-- The feature window's block at point `t` is batches `8t … 8t + 7` of the features. -/
theorem featBlock_apply (c : Dev nD) (t : Fin cfg0.N) (b : Fin 8) (i : Fin 256) (k : Fin 128) :
    (iblk m c 0 t : Vec Ideal S8x256x128 .f32) (ix3 b i k)
      = ((m ((c : Thread nD τ).loc main_arg0)) : S512x256x128.Idx → EReal) (ix3 ⟨8 * t.val + b.val, by have := point_lt t; omega⟩ i k) := by
  obtain ⟨⟨e0, e1, e2⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 8 + 1 * b.val = 8 * t.val + b.val; rw [e0]; omega
  | ⟨1, _⟩ => show win0_0.index t 1 * 256 + 1 * i.val = i.val; rw [e1]; omega
  | ⟨2, _⟩ => show win0_0.index t 2 * 128 + 1 * k.val = k.val; rw [e2]; omega

/-- The label window's block at point `t` is batches `8t … 8t + 7` of the labels. -/
theorem labelBlock_apply (c : Dev nD) (t : Fin cfg0.N) (b : Fin 8) (i j : Fin 256) :
    (iblk m c 1 t : Vec Ideal S8x256x256 .i32) (ix3 b i j)
      = ((m ((c : Thread nD τ).loc main_arg1)) : S512x256x256.Idx → BitVec 32) (ix3 ⟨8 * t.val + b.val, by have := point_lt t; omega⟩ i j) := by
  obtain ⟨-, ⟨e0, e1, e2⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 8 + 1 * b.val = 8 * t.val + b.val; rw [e0]; omega
  | ⟨1, _⟩ => show win0_1.index t 1 * 256 + 1 * i.val = i.val; rw [e1]; omega
  | ⟨2, _⟩ => show win0_1.index t 2 * 256 + 1 * j.val = j.val; rw [e2]; omega

/-- The first weighting window's one block is the row the host made of the first weighting's column. -/
theorem rowBlock2_apply (c : Dev nD) (t : Fin cfg0.N) (k : Fin 128) :
    (iblk m c 2 t : Vec Ideal S1x128 .f32) (ix2 0 k) = ((m ((c : Thread nD τ).loc main_arg2)) : S128x1.Idx → EReal) (ix2 k 0) := by
  obtain ⟨-, -, ⟨e0, e1⟩, -⟩ := idx_facts t
  unfold iblk
  rw [View.read_apply]
  show V m c main_v1 _ = _
  have hk : (((cfg0.win 2).blk t).view.emb (ix2 (0 : Fin 1) k) : S1x128.Idx) = ix2 0 k := by
    funext a
    apply Fin.ext
    match a with
    | ⟨0, _⟩ => show win0_2.index t 0 * 1 + 1 * 0 = 0; rw [e0]
    | ⟨1, _⟩ => show win0_2.index t 1 * 128 + 1 * k.val = k.val; rw [e1]; omega
  rw [hk, row1_eq]
  exact rowOfColumn_apply _ k
theorem rowBlock3_apply (c : Dev nD) (t : Fin cfg0.N) (k : Fin 128) :
    (iblk m c 3 t : Vec Ideal S1x128 .f32) (ix2 0 k) = ((m ((c : Thread nD τ).loc main_arg3)) : S128x1.Idx → EReal) (ix2 k 0) := by
  obtain ⟨-, -, -, ⟨e0, e1⟩, -⟩ := idx_facts t
  unfold iblk
  rw [View.read_apply]
  show V m c main_v3 _ = _
  have hk : (((cfg0.win 3).blk t).view.emb (ix2 (0 : Fin 1) k) : S1x128.Idx) = ix2 0 k := by
    funext a
    apply Fin.ext
    match a with
    | ⟨0, _⟩ => show win0_3.index t 0 * 1 + 1 * 0 = 0; rw [e0]
    | ⟨1, _⟩ => show win0_3.index t 1 * 128 + 1 * k.val = k.val; rw [e1]; omega
  rw [hk, row3_eq]
  exact rowOfColumn_apply _ k
theorem rowBlock4_apply (c : Dev nD) (t : Fin cfg0.N) (k : Fin 128) :
    (iblk m c 4 t : Vec Ideal S1x128 .f32) (ix2 0 k) = ((m ((c : Thread nD τ).loc main_arg4)) : S128x1.Idx → EReal) (ix2 k 0) := by
  obtain ⟨-, -, -, -, ⟨e0, e1⟩, -⟩ := idx_facts t
  unfold iblk
  rw [View.read_apply]
  show V m c main_v5 _ = _
  have hk : (((cfg0.win 4).blk t).view.emb (ix2 (0 : Fin 1) k) : S1x128.Idx) = ix2 0 k := by
    funext a
    apply Fin.ext
    match a with
    | ⟨0, _⟩ => show win0_4.index t 0 * 1 + 1 * 0 = 0; rw [e0]
    | ⟨1, _⟩ => show win0_4.index t 1 * 128 + 1 * k.val = k.val; rw [e1]; omega
  rw [hk, row5_eq]
  exact rowOfColumn_apply _ k
theorem rowBlock5_apply (c : Dev nD) (t : Fin cfg0.N) (k : Fin 128) :
    (iblk m c 5 t : Vec Ideal S1x128 .f32) (ix2 0 k) = ((m ((c : Thread nD τ).loc main_arg5)) : S128x1.Idx → EReal) (ix2 k 0) := by
  obtain ⟨-, -, -, -, -, ⟨e0, e1⟩, -⟩ := idx_facts t
  unfold iblk
  rw [View.read_apply]
  show V m c main_v7 _ = _
  have hk : (((cfg0.win 5).blk t).view.emb (ix2 (0 : Fin 1) k) : S1x128.Idx) = ix2 0 k := by
    funext a
    apply Fin.ext
    match a with
    | ⟨0, _⟩ => show win0_5.index t 0 * 1 + 1 * 0 = 0; rw [e0]
    | ⟨1, _⟩ => show win0_5.index t 1 * 128 + 1 * k.val = k.val; rw [e1]; omega
  rw [hk, row7_eq]
  exact rowOfColumn_apply _ k

/-! ## One entry of one block -/

/-- Over plain arrays: if a block's features and labels are batches `8T … 8T + 7` of two arrays and its four rows are four
    columns read down, then entry `y` of the block's result is the attention of all batches at the index `8T` batches
    further along. -/
theorem entry_eq (x0 : Vec Ideal S8x256x128 .f32) (x1 : Vec Ideal S8x256x256 .i32) (x2 x3 x4 x5 : Vec Ideal S1x128 .f32)
    (A0 : S512x256x128.Idx → EReal) (A1 : S512x256x256.Idx → BitVec 32) (A2 A3 A4 A5 : S128x1.Idx → EReal)
    (T : ℕ) (hT : T < 64)
    (h0 : ∀ (b : Fin 8) (i : Fin 256) (k : Fin 128), x0 (ix3 b i k) = A0 (ix3 ⟨8 * T + b.val, by omega⟩ i k))
    (h1 : ∀ (b : Fin 8) (i j : Fin 256), x1 (ix3 b i j) = A1 (ix3 ⟨8 * T + b.val, by omega⟩ i j))
    (h2 : ∀ k : Fin 128, x2 (ix2 0 k) = A2 (ix2 k 0)) (h3 : ∀ k : Fin 128, x3 (ix2 0 k) = A3 (ix2 k 0))
    (h4 : ∀ k : Fin 128, x4 (ix2 0 k) = A4 (ix2 k 0)) (h5 : ∀ k : Fin 128, x5 (ix2 0 k) = A5 (ix2 k 0))
    (y : S8x256x128.Idx) (I : S512x256x128.Idx)
    (hI0 : (I 0).val = 8 * T + (y 0).val) (hI1 : (I 1).val = (y 1).val) (hI2 : (I 2).val = (y 2).val) :
    blockResult x0 x1 x2 x3 x4 x5 y = attendAll A0 A1 A2 A3 A4 A5 I := by
  obtain ⟨b, i, d, rfl⟩ : ∃ (b : Fin 8) (i : Fin 256) (d : Fin 128), y = ix3 b i d := ⟨y 0, y 1, y 2, eq_ix3 y⟩
  have hB : 8 * T + b.val < 512 := by have := b.isLt; omega
  obtain ⟨B, i', d', rfl⟩ : ∃ (B : Fin 512) (i' : Fin 256) (d' : Fin 128), I = ix3 B i' d' := ⟨I 0, I 1, I 2, eq_ix3 I⟩
  obtain rfl : B = ⟨8 * T + b.val, hB⟩ := Fin.ext hI0
  obtain rfl : i' = i := Fin.ext hI1
  obtain rfl : d' = d := Fin.ext hI2
  rw [blockResult_apply, attendAll_apply]
  have e0 : feat x0 b = fun i k => A0 (ix3 ⟨8 * T + b.val, hB⟩ i k) :=
    funext fun i => funext fun k => h0 b i k
  have e1 : labels x1 b = fun i j => A1 (ix3 ⟨8 * T + b.val, hB⟩ i j) :=
    funext fun i => funext fun j => h1 b i j
  have e2 : rowOf x2 = fun k => A2 (ix2 k 0) := funext h2
  have e3 : rowOf x3 = fun k => A3 (ix2 k 0) := funext h3
  have e4 : rowOf x4 = fun k => A4 (ix2 k 0) := funext h4
  have e5 : rowOf x5 = fun k => A5 (ix2 k 0) := funext h5
  rw [e0, e1, e2, e3, e4, e5]

/-! ## What each point writes back, and the array after the run -/

/-- Point `t` writes back block `t` of the attention of all 512 batches of the argument arrays. -/
theorem flushed_eq (c : Dev nD) (t : Fin cfg0.N) :
    (dats m 0 c).flushed 6 t
      = ((cfg0.win 6).blk t).view.read (Elt Ideal) (attendAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KernelIdeal.Value.flushed6]
  unfold out0_6
  rw [View.canon_unit_zero hz3]
  simp only [View.ld_unit_zero (S := S8x256x128) hz3, View.ld_unit_zero (S := S8x256x256) hz3, View.ld_unit_zero (S := S1x128) hz2]
  rw [payload_eq]
  obtain ⟨-, -, -, -, -, -, ⟨e0, e1, e2⟩⟩ := idx_facts t
  funext y
  refine entry_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t.val (point_lt t)
    (fun b i k => featBlock_apply m c t b i k) (fun b i j => labelBlock_apply m c t b i j)
    (fun k => rowBlock2_apply m c t k) (fun k => rowBlock3_apply m c t k) (fun k => rowBlock4_apply m c t k)
    (fun k => rowBlock5_apply m c t k) y (((cfg0.win 6).blk t).view.emb y) ?_ ?_ ?_
  · show win0_6.index t 0 * 8 + 1 * (y 0).val = 8 * t.val + (y 0).val; rw [e0]; omega
  · show win0_6.index t 1 * 256 + 1 * (y 1).val = (y 1).val; rw [e1]; omega
  · show win0_6.index t 2 * 128 + 1 * (y 2).val = (y 2).val; rw [e2]; omega

/-- An index of the result array is in point `t`'s block iff each coordinate is in the block's range on its axis. -/
theorem mem_blk (t : Fin cfg0.N) (I : S512x256x128.Idx) :
    I ∈ ((cfg0.win 6).blk t).view.set ↔ ∀ a : Fin 3, win0_6.index t a * S8x256x128.size a ≤ (I a).val
      ∧ (I a).val < win0_6.index t a * S8x256x128.size a + S8x256x128.size a := by
  show I ∈ ((View.whole main_v8).slice (win0_6.rect t)).set ↔ _
  rw [View.set_slice_whole, Rect.mem_set_unit]
  exact Iff.rfl

/-- The 64 blocks tile the result array: batch `B` lies in the block of point `B / 8`. -/
theorem cover (I : S512x256x128.Idx) :
    ∃ t : Fin cfg0.N, (cfg0.win 6).flush t = true ∧ I ∈ ((cfg0.win 6).blk t).view.set := by
  have hN : cfg0.N = 64 := N_0
  have h0 : (I 0).val < 512 := (I 0).isLt
  have h1 : (I 1).val < 256 := (I 1).isLt
  have h2 : (I 2).val < 128 := (I 2).isLt
  refine ⟨⟨(I 0).val / 8, by omega⟩, flush0_6 _, ?_⟩
  rw [mem_blk]
  obtain ⟨-, -, -, -, -, -, ⟨e0, e1, e2⟩⟩ := idx_facts ⟨(I 0).val / 8, by omega⟩
  intro a
  match a with
  | ⟨0, _⟩ =>
    show win0_6.index ⟨(I 0).val / 8, _⟩ 0 * 8 ≤ (I 0).val ∧ (I 0).val < win0_6.index ⟨(I 0).val / 8, _⟩ 0 * 8 + 8
    rw [e0]; show (I 0).val / 8 * 8 ≤ (I 0).val ∧ (I 0).val < (I 0).val / 8 * 8 + 8; omega
  | ⟨1, _⟩ =>
    show win0_6.index ⟨(I 0).val / 8, _⟩ 1 * 256 ≤ (I 1).val ∧ (I 1).val < win0_6.index ⟨(I 0).val / 8, _⟩ 1 * 256 + 256
    rw [e1]; omega
  | ⟨2, _⟩ =>
    show win0_6.index ⟨(I 0).val / 8, _⟩ 2 * 128 ≤ (I 2).val ∧ (I 2).val < win0_6.index ⟨(I 0).val / 8, _⟩ 2 * 128 + 128
    rw [e2]; omega

/-- The result array after the run is the attention of all 512 batches of the argument arrays. -/
theorem final (c : Dev nD) : (dats m 0 c).arrAt 6 cfg0.N = attendAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (attendAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) cover

/-- The kernel's run: every weakly fair execution ends with the result array at the attention of all 512 batches and the
    argument arrays as they were. -/
theorem run : θ_run defs (onTc (τ := τ) (main (F := Ideal))) ⟨m, fun _ => 0, ρ⟩ fun r => ∀ c : Dev nD,
      r.2.mem ((c : Thread nD τ).loc main_v8) = attendAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Whole

end
-- ==== Proof.RefValue.lean ====
/-
  What the reference computes, entry by entry.

  The reference works on all 512 batches at once, one whole-array operation after another. Read at an index, each of
  its stages is the corresponding function of ONE batch: a relation's scores at `(B, i, j)` are the rectified weighted
  inner product of nodes `i` and `j` of batch `B`; the label-selected scores, the row maxima, the exponentials, the row
  sums and the weights follow entry by entry; and the result at `(B, i, d)` is batch `B`'s attention at node `i`, feature
  `d`. The weightings arrive as columns `[128, 1]` and are read down the column.
-/
import proofs.«110372_j84241488544072_1_alg».proof.Proof.Gen.ReferenceIdeal.Read
import proofs.«110372_j84241488544072_1_alg».proof.Proof.Attention
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.GraphAttn
open scoped BigOperators

/-- Batch `B`'s features. -/
abbrev feat (X0 : (⟨S512x256x128, .f32⟩ : BufTy).Contents (Elt Ideal)) (B : Fin 512) : Fin 256 → Fin 128 → EReal := fun i k => X0 (ix3 B i k)
/-- Batch `B`'s relation labels. -/
abbrev labels (X1 : (⟨S512x256x256, .i32⟩ : BufTy).Contents (Elt Ideal)) (B : Fin 512) : Fin 256 → Fin 256 → BitVec 32 := fun i j => X1 (ix3 B i j)
/-- A weighting, read down the one column it is given as. -/
abbrev colOf (a : (⟨S128x1, .f32⟩ : BufTy).Contents (Elt Ideal)) : Fin 128 → EReal := fun k => a (ix2 k 0)

/-! ## One relation's rectified scores -/

/-- A column of 128 numbers spread over the whole array: entry `(B, i, k)` is the column's entry `k`. -/
theorem spreadCol_apply (a : (⟨S128x1, .f32⟩ : BufTy).Contents (Elt Ideal)) (B : Fin 512) (i : Fin 256) (k : Fin 128) :
    val_main_v2 (F := Ideal) a (ix3 B i k) = a (ix2 k 0) := by
  rw [val_main_v2_apply, val_main_v1_apply, val_main_v0_apply]
  exact congrArg a (funext fun ax => Fin.ext (by
    match ax with
    | ⟨0, _⟩ => exact Nat.div_one _
    | ⟨1, _⟩ => rfl))

/-- The raw scores of the first relation's stage, for any weighting. -/
theorem rawStage_apply (X0 : (⟨S512x256x128, .f32⟩ : BufTy).Contents (Elt Ideal)) (a : (⟨S128x1, .f32⟩ : BufTy).Contents (Elt Ideal))
    (B : Fin 512) (i j : Fin 256) :
    val_main_v4 (F := Ideal) X0 a (ix3 B i j) = raw (feat X0 B) (colOf a) i j := by
  rw [val_main_v4_apply]
  refine Finset.sum_congr rfl fun k _ => ?_
  have el : lidx_main_v4 (ix3 B i j) k = ix3 B i k := funext fun ax => Fin.ext (by
    match ax with
    | ⟨0, _⟩ => rfl
    | ⟨1, _⟩ => rfl
    | ⟨2, _⟩ => rfl)
  have er : ridx_main_v4 (ix3 B i j) k = ix3 B j k := funext fun ax => Fin.ext (by
    match ax with
    | ⟨0, _⟩ => rfl
    | ⟨1, _⟩ => rfl
    | ⟨2, _⟩ => rfl)
  rw [el, er, val_main_v3_apply, spreadCol_apply]
  rfl

/-- The rectified scores of the first relation's stage, for any weighting. -/
theorem relStage_apply (X0 : (⟨S512x256x128, .f32⟩ : BufTy).Contents (Elt Ideal)) (a : (⟨S128x1, .f32⟩ : BufTy).Contents (Elt Ideal))
    (B : Fin 512) (i j : Fin 256) :
    val_main_v9 (F := Ideal) X0 a (ix3 B i j) = leaky (raw (feat X0 B) (colOf a) i j) := by
  rw [val_main_v9_apply, val_main_v6_apply, val_main_v8_apply, val_main_v5_apply, val_main_v7_apply, val_main_cst_apply,
    val_main_cst_0_apply, rawStage_apply]
  rfl

/-- The four relations' stages are one function of the features and the weighting, applied to the four weightings. -/
theorem relStage_second (X0 : (⟨S512x256x128, .f32⟩ : BufTy).Contents (Elt Ideal)) (a : (⟨S128x1, .f32⟩ : BufTy).Contents (Elt Ideal)) :
    val_main_v19 (F := Ideal) X0 a = val_main_v9 (F := Ideal) X0 a := rfl
theorem relStage_third (X0 : (⟨S512x256x128, .f32⟩ : BufTy).Contents (Elt Ideal)) (a : (⟨S128x1, .f32⟩ : BufTy).Contents (Elt Ideal)) :
    val_main_v29 (F := Ideal) X0 a = val_main_v9 (F := Ideal) X0 a := rfl
theorem relStage_fourth (X0 : (⟨S512x256x128, .f32⟩ : BufTy).Contents (Elt Ideal)) (a : (⟨S128x1, .f32⟩ : BufTy).Contents (Elt Ideal)) :
    val_main_v39 (F := Ideal) X0 a = val_main_v9 (F := Ideal) X0 a := rfl

/-! ## The scores, selected by label -/

theorem scoreStage_apply (X0 : (⟨S512x256x128, .f32⟩ : BufTy).Contents (Elt Ideal)) (X1 : (⟨S512x256x256, .i32⟩ : BufTy).Contents (Elt Ideal))
    (X2 X3 X4 X5 : (⟨S128x1, .f32⟩ : BufTy).Contents (Elt Ideal)) (B : Fin 512) (i j : Fin 256) :
    val_main_v52 (F := Ideal) X0 X1 X2 X3 X4 X5 (ix3 B i j) = score (feat X0 B) (labels X1 B) (colOf X2) (colOf X3) (colOf X4) (colOf X5) i j := by
  rw [val_main_v52_apply, val_main_v51_apply, val_main_v50_apply, val_main_c_10_apply,
    val_main_v49_apply, val_main_v48_apply, val_main_v47_apply, val_main_c_9_apply,
    val_main_v46_apply, val_main_v45_apply, val_main_v44_apply, val_main_c_8_apply,
    val_main_v43_apply, val_main_v42_apply, val_main_v41_apply, val_main_c_apply,
    val_main_v40_apply, val_main_cst_7_apply,
    relStage_fourth, relStage_third, relStage_second,
    relStage_apply, relStage_apply, relStage_apply, relStage_apply]
  rfl

/-! ## The soft maximum along the last axis -/

/-- The last axis of the score array can be folded away. -/
theorem lastAxisReduces : S512x256x256.Reduces [2] S512x256 := by decide

/-- Row `(B, i)` with the last coordinate `j` put back is `(B, i, j)`. -/
theorem lastAxis_lift (B : Fin 512) (i j : Fin 256) : lastAxisReduces.lift (ix2 B i) j = ix3 B i j :=
  funext fun ax => Fin.ext (by
    match ax with
    | ⟨0, _⟩ => rfl
    | ⟨1, _⟩ => rfl
    | ⟨2, _⟩ => rfl)

/-- The host's maximum along the last axis: the fold of `max` from the initial value over the row. -/
theorem rowMaxima_apply (x : FVec Ideal S512x256x256 .f32) (init : FVec Ideal S_ .f32) (B : Fin 512) (i : Fin 256) :
    Host.reduce FloatOps.maximumf x init reducesTo_S512x256x256_S512x256_d2 h_S_ (ix2 B i)
      = (Finset.univ : Finset (Fin 256)).fold max (init (Shape.Idx.first h_S_)) (fun j => x (ix3 B i j)) := by
  refine (Host.reduce_eq_fold_single FloatOps.maximumf x init reducesTo_S512x256x256_S512x256_d2 lastAxisReduces h_S_ (ix2 B i)).trans ?_
  exact congrArg (fun f : Fin 256 → EReal => (Finset.univ : Finset (Fin 256)).fold max (init (Shape.Idx.first h_S_)) f)
    (funext fun j => congrArg x (lastAxis_lift B i j))

/-- A keepdims column spread along the last axis reads row `(B, i)`'s number at every `(B, i, j)`. -/
theorem column_idx (B : Fin 512) (i j : Fin 256) : idx_main_v56 (idx_main_v57 (ix3 B i j)) = ix2 B i :=
  funext fun ax => Fin.ext (by
    match ax with
    | ⟨0, _⟩ => rfl
    | ⟨1, _⟩ => rfl)

theorem maxStage_apply (X0 : (⟨S512x256x128, .f32⟩ : BufTy).Contents (Elt Ideal)) (X1 : (⟨S512x256x256, .i32⟩ : BufTy).Contents (Elt Ideal))
    (X2 X3 X4 X5 : (⟨S128x1, .f32⟩ : BufTy).Contents (Elt Ideal)) (B : Fin 512) (i : Fin 256) :
    val_main_v55 (F := Ideal) X0 X1 X2 X3 X4 X5 (ix2 B i) = rowMax (score (feat X0 B) (labels X1 B) (colOf X2) (colOf X3) (colOf X4) (colOf X5)) i := by
  rw [val_main_v55_apply, val_main_v54_apply, val_main_cst_12_apply]
  refine congrArg (max negInfLit) ?_
  unfold val_main_v53
  refine (rowMaxima_apply _ _ B i).trans ?_
  exact congrArg (fun f : Fin 256 → EReal => (Finset.univ : Finset (Fin 256)).fold max negInfLit f)
    (funext fun j => scoreStage_apply X0 X1 X2 X3 X4 X5 B i j)

theorem expStage_apply (X0 : (⟨S512x256x128, .f32⟩ : BufTy).Contents (Elt Ideal)) (X1 : (⟨S512x256x256, .i32⟩ : BufTy).Contents (Elt Ideal))
    (X2 X3 X4 X5 : (⟨S128x1, .f32⟩ : BufTy).Contents (Elt Ideal)) (B : Fin 512) (i j : Fin 256) :
    val_main_v59 (F := Ideal) X0 X1 X2 X3 X4 X5 (ix3 B i j) = expo (score (feat X0 B) (labels X1 B) (colOf X2) (colOf X3) (colOf X4) (colOf X5)) i j := by
  rw [val_main_v59_apply, val_main_v58_apply, val_main_v57_apply, val_main_v56_apply, scoreStage_apply, column_idx,
    maxStage_apply]
  rfl

theorem sumStage_apply (X0 : (⟨S512x256x128, .f32⟩ : BufTy).Contents (Elt Ideal)) (X1 : (⟨S512x256x256, .i32⟩ : BufTy).Contents (Elt Ideal))
    (X2 X3 X4 X5 : (⟨S128x1, .f32⟩ : BufTy).Contents (Elt Ideal)) (B : Fin 512) (i : Fin 256) :
    val_main_v60 (F := Ideal) X0 X1 X2 X3 X4 X5 (ix2 B i) = denom (score (feat X0 B) (labels X1 B) (colOf X2) (colOf X3) (colOf X4) (colOf X5)) i := by
  rw [val_main_v60_apply, val_main_cst_13_apply,
    show FloatOps.ofBits (F := Ideal) .f32 0x00000000#32 = 0 from Ideal.ofBits_zero_f32, zero_add]
  refine Finset.sum_congr rfl fun j _ => ?_
  have e : idx_main_v60 (ix2 B i) j = ix3 B i j := funext fun ax => Fin.ext (by
    match ax with
    | ⟨0, _⟩ => rfl
    | ⟨1, _⟩ => rfl
    | ⟨2, _⟩ => rfl)
  rw [e, expStage_apply]

theorem weightStage_apply (X0 : (⟨S512x256x128, .f32⟩ : BufTy).Contents (Elt Ideal)) (X1 : (⟨S512x256x256, .i32⟩ : BufTy).Contents (Elt Ideal))
    (X2 X3 X4 X5 : (⟨S128x1, .f32⟩ : BufTy).Contents (Elt Ideal)) (B : Fin 512) (i j : Fin 256) :
    val_main_v63 (F := Ideal) X0 X1 X2 X3 X4 X5 (ix3 B i j) = weight (score (feat X0 B) (labels X1 B) (colOf X2) (colOf X3) (colOf X4) (colOf X5)) i j := by
  have e : idx_main_v61 (idx_main_v62 (ix3 B i j)) = ix2 B i := funext fun ax => Fin.ext (by
    match ax with
    | ⟨0, _⟩ => rfl
    | ⟨1, _⟩ => rfl)
  rw [val_main_v63_apply, val_main_v62_apply, val_main_v61_apply, expStage_apply, e, sumStage_apply]
  rfl

/-! ## The result -/

/-- Entry `(B, i, d)` of the reference's result is batch `B`'s attention at node `i`, feature `d`. -/
theorem result_apply (X0 : (⟨S512x256x128, .f32⟩ : BufTy).Contents (Elt Ideal)) (X1 : (⟨S512x256x256, .i32⟩ : BufTy).Contents (Elt Ideal))
    (X2 X3 X4 X5 : (⟨S128x1, .f32⟩ : BufTy).Contents (Elt Ideal)) (B : Fin 512) (i : Fin 256) (d : Fin 128) :
    val_main_v64 (F := Ideal) X0 X1 X2 X3 X4 X5 (ix3 B i d)
      = attend (feat X0 B) (labels X1 B) (colOf X2) (colOf X3) (colOf X4) (colOf X5) i d := by
  rw [val_main_v64_apply]
  refine Finset.sum_congr rfl fun j _ => ?_
  have el : lidx_main_v64 (ix3 B i d) j = ix3 B i j := funext fun ax => Fin.ext (by
    match ax with
    | ⟨0, _⟩ => rfl
    | ⟨1, _⟩ => rfl
    | ⟨2, _⟩ => rfl)
  have er : ridx_main_v64 (ix3 B i d) j = ix3 B j d := funext fun ax => Fin.ext (by
    match ax with
    | ⟨0, _⟩ => rfl
    | ⟨1, _⟩ => rfl
    | ⟨2, _⟩ => rfl)
  rw [el, er, weightStage_apply]

/-- The reference's result array is the attention of all 512 batches. -/
theorem result_eq (X0 : (⟨S512x256x128, .f32⟩ : BufTy).Contents (Elt Ideal)) (X1 : (⟨S512x256x256, .i32⟩ : BufTy).Contents (Elt Ideal))
    (X2 X3 X4 X5 : (⟨S128x1, .f32⟩ : BufTy).Contents (Elt Ideal)) :
    val_main_v64 (F := Ideal) X0 X1 X2 X3 X4 X5 = attendAll X0 X1 X2 X3 X4 X5 := by
  funext I
  obtain ⟨B, i, d, rfl⟩ : ∃ (B : Fin 512) (i : Fin 256) (d : Fin 128), I = ix3 B i d := ⟨I 0, I 1, I 2, eq_ix3 I⟩
  rw [result_apply, attendAll_apply]

end Cert.ReferenceIdeal.RefValue

end
-- ==== Proof.lean ====
/-
  Relation-typed graph attention over 512 independent batches: a kernel that handles eight batches per grid point against
  a reference that handles all batches in whole-array operations.

  For one batch — 256 nodes of 128 features `h`, a relation label on every ordered pair of nodes, four feature
  weightings — both programs compute, for every pair `(i, j)` and weighting `a`, the weighted inner product
  `∑ₖ (h i k · a k) · h j k`, rectify it (slope one fifth, as its single-precision number), keep the one its label names
  (else a fixed large negative number), turn each row into weights by the soft maximum (subtract the row's greatest
  entry, exponentiate, divide by the row's sum), and return `∑ⱼ weight i j · h j d`. On the extended reals the kernel's
  changes of float format are the identity, its matrix products into a zero accumulator are the reference's, and its
  reductions along the last axis are the reference's; the two programs spell the same four numbers; so block by block the
  kernel writes exactly the reference's function of the arguments, and the 64 blocks tile the result. The equality is
  term by term: no law of arithmetic that could fail at an infinity is used, and the precondition is not opened.

  The three frames are the generated ones (the reference's is its generated run with the result dropped); the idealized
  kernel is the kernel's own text read on the extended reals, so there is nothing to preserve beyond that.
-/
import proofs.«110372_j84241488544072_1_alg».proof.Defs
import proofs.«110372_j84241488544072_1_alg».proof.Proof.Gen.Kernel
import proofs.«110372_j84241488544072_1_alg».proof.Proof.Gen.Kernel.Skeleton
import proofs.«110372_j84241488544072_1_alg».proof.Proof.Gen.Kernel.Launch
import proofs.«110372_j84241488544072_1_alg».proof.Proof.Gen.Kernel.Points
import proofs.«110372_j84241488544072_1_alg».proof.Proof.Gen.Kernel.Frame
import proofs.«110372_j84241488544072_1_alg».proof.Proof.Gen.KernelIdeal
import proofs.«110372_j84241488544072_1_alg».proof.Proof.Gen.KernelIdeal.Skeleton
import proofs.«110372_j84241488544072_1_alg».proof.Proof.Gen.KernelIdeal.Launch
import proofs.«110372_j84241488544072_1_alg».proof.Proof.Gen.KernelIdeal.Points
import proofs.«110372_j84241488544072_1_alg».proof.Proof.Gen.KernelIdeal.Frame
import proofs.«110372_j84241488544072_1_alg».proof.Proof.Gen.ReferenceIdeal
import proofs.«110372_j84241488544072_1_alg».proof.Proof.Gen.Pre_finite_inputs
import proofs.«110372_j84241488544072_1_alg».proof.Proof.Gen.KernelIdeal.Value
import proofs.«110372_j84241488544072_1_alg».proof.Proof.Gen.ReferenceIdeal.Run
import proofs.«110372_j84241488544072_1_alg».proof.Proof.Gen.ReferenceIdeal.Read
import proofs.«110372_j84241488544072_1_alg».proof.Proof.KernelArray
import proofs.«110372_j84241488544072_1_alg».proof.Proof.RefValue
import Idealize.ShloMosaic.Adequacy
import Idealize.ShloMosaic.Init

noncomputable section

namespace Cert.Proof

open Idealize.ShloMosaic Idealize.SL.Sem Cert.GraphAttn

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories that agree on the arguments, the kernel's result array and the reference's both end at the attention of
    all 512 batches of those arguments. -/
theorem algebraic : Cert.algebraic_KernelIdeal_ReferenceIdeal := by
  intro m ρ m' ρ' _ hagree
  refine ⟨fun c => attendAll (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.RefValue.result_eq]
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
